-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S2048x16384 : Shape := ⟨2, ![2048, 16384]⟩
abbrev S4096x16384 : Shape := ⟨2, ![4096, 16384]⟩
abbrev S16384x4096 : Shape := ⟨2, ![16384, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S16384x4096 : S_.BroadcastsInDim S16384x4096 (![] : Fin 0 → Fin S16384x4096.rank)
  reducesTo_S16384x4096_S_d0_1 : S16384x4096.ReducesTo [0, 1] S_

variable [Facts]

def fn_part2 {F : FTy → Type} [FloatOps F] (main_arg7 : FVec F S16384x4096 .f32) (main_arg8 : FVec F S4096x16384 .f32) (main_arg9 : FVec F S4096x16384 .f32) (main_v33 : IVec S_ 1) : IVec S_ 1 :=
  let main_v34 : FVec F S16384x4096 .f32 := Host.absf main_arg7
  let main_cst_12 : FVec F S_ .f32 := constant S_ .f32 0x7F800000#32
  let main_v35 : FVec F S16384x4096 .f32 := broadcastInDim S16384x4096 ![] bcast_S_S16384x4096 main_cst_12
  let main_v36 : IVec S16384x4096 1 := cmpf .olt main_v34 main_v35
  let main_c_13 : IVec S_ 1 := constantI S_ 1 1#1
  let main_v37 : IVec S_ 1 := (fun x v => Host.reduce IntOp.andi x v reducesTo_S16384x4096_S_d0_1 h_S_) main_v36 main_c_13
  let main_v38 : IVec S_ 1 := andi main_v33 main_v37
  let main_v39 : FVec F S4096x16384 .f32 := Host.absf main_arg8
  let main_cst_14 : FVec F S_ .f32 := constant S_ .f32 0x7F800000#32
  let main_v40 : FVec F S4096x16384 .f32 := broadcastInDim S4096x16384 ![] bcast_S_S4096x16384 main_cst_14
  let main_v41 : IVec S4096x16384 1 := cmpf .olt main_v39 main_v40
  let main_c_15 : IVec S_ 1 := constantI S_ 1 1#1
  let main_v42 : IVec S_ 1 := (fun x v => Host.reduce IntOp.andi x v reducesTo_S4096x16384_S_d0_1 h_S_) main_v41 main_c_15
  let main_v43 : IVec S_ 1 := andi main_v38 main_v42
  let main_v44 : FVec F S4096x16384 .f32 := Host.absf main_arg9
  let main_cst_16 : FVec F S_ .f32 := constant S_ .f32 0x7F800000#32
  let main_v45 : FVec F S4096x16384 .f32 := broadcastInDim S4096x16384 ![] bcast_S_S4096x16384 main_cst_16
  let main_v46 : IVec S4096x16384 1 := cmpf .olt main_v44 main_v45
  let main_c_17 : IVec S_ 1 := constantI S_ 1 1#1
  let main_v47 : IVec S_ 1 := (fun x v => Host.reduce IntOp.andi x v reducesTo_S4096x16384_S_d0_1 h_S_) main_v46 main_c_17
  let main_v48 : IVec S_ 1 := andi main_v43 main_v47
  main_v48

def fn_part1 {F : FTy → Type} [FloatOps F] (main_arg4 : FVec F S2048x16384 .f32) (main_arg5 : FVec F S2048x16384 .f32) (main_arg6 : FVec F S4096x16384 .f32) (main_arg7 : FVec F S16384x4096 .f32) (main_arg8 : FVec F S4096x16384 .f32) (main_arg9 : FVec F S4096x16384 .f32) (main_v13 : IVec S_ 1) (main_v16 : IVec S2048x16384 1) : IVec S_ 1 :=
  let main_c_5 : IVec S_ 1 := constantI S_ 1 1#1
  let main_v17 : IVec S_ 1 := (fun x v => Host.reduce IntOp.andi x v reducesTo_S2048x16384_S_d0_1 h_S_) main_v16 main_c_5
  let main_v18 : IVec S_ 1 := andi main_v13 main_v17
  let main_v19 : FVec F S2048x16384 .f32 := Host.absf main_arg4
  let main_cst_6 : FVec F S_ .f32 := constant S_ .f32 0x7F800000#32
  let main_v20 : FVec F S2048x16384 .f32 := broadcastInDim S2048x16384 ![] bcast_S_S2048x16384 main_cst_6
  let main_v21 : IVec S2048x16384 1 := cmpf .olt main_v19 main_v20
  let main_c_7 : IVec S_ 1 := constantI S_ 1 1#1
  let main_v22 : IVec S_ 1 := (fun x v => Host.reduce IntOp.andi x v reducesTo_S2048x16384_S_d0_1 h_S_) main_v21 main_c_7
  let main_v23 : IVec S_ 1 := andi main_v18 main_v22
  let main_v24 : FVec F S2048x16384 .f32 := Host.absf main_arg5
  let main_cst_8 : FVec F S_ .f32 := constant S_ .f32 0x7F800000#32
  let main_v25 : FVec F S2048x16384 .f32 := broadcastInDim S2048x16384 ![] bcast_S_S2048x16384 main_cst_8
  let main_v26 : IVec S2048x16384 1 := cmpf .olt main_v24 main_v25
  let main_c_9 : IVec S_ 1 := constantI S_ 1 1#1
  let main_v27 : IVec S_ 1 := (fun x v => Host.reduce IntOp.andi x v reducesTo_S2048x16384_S_d0_1 h_S_) main_v26 main_c_9
  let main_v28 : IVec S_ 1 := andi main_v23 main_v27
  let main_v29 : FVec F S4096x16384 .f32 := Host.absf main_arg6
  let main_cst_10 : FVec F S_ .f32 := constant S_ .f32 0x7F800000#32
  let main_v30 : FVec F S4096x16384 .f32 := broadcastInDim S4096x16384 ![] bcast_S_S4096x16384 main_cst_10
  let main_v31 : IVec S4096x16384 1 := cmpf .olt main_v29 main_v30
  let main_c_11 : IVec S_ 1 := constantI S_ 1 1#1
  let main_v32 : IVec S_ 1 := (fun x v => Host.reduce IntOp.andi x v reducesTo_S4096x16384_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x4096 .f32) (main_arg1 : FVec F S2048x4096 .f32) (main_arg2 : FVec F S2048x16384 .f32) (main_arg3 : FVec F S2048x16384 .f32) (main_arg4 : FVec F S2048x16384 .f32) (main_arg5 : FVec F S2048x16384 .f32) (main_arg6 : FVec F S4096x16384 .f32) (main_arg7 : FVec F S16384x4096 .f32) (main_arg8 : FVec F S4096x16384 .f32) (main_arg9 : FVec F S4096x16384 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x16384 .f32 := Host.absf main_arg2
  let main_cst_2 : FVec F S_ .f32 := constant S_ .f32 0x7F800000#32
  let main_v10 : FVec F S2048x16384 .f32 := broadcastInDim S2048x16384 ![] bcast_S_S2048x16384 main_cst_2
  let main_v11 : IVec S2048x16384 1 := cmpf .olt main_v9 main_v10
  let main_c_3 : IVec S_ 1 := constantI S_ 1 1#1
  let main_v12 : IVec S_ 1 := (fun x v => Host.reduce IntOp.andi x v reducesTo_S2048x16384_S_d0_1 h_S_) main_v11 main_c_3
  let main_v13 : IVec S_ 1 := andi main_v8 main_v12
  let main_v14 : FVec F S2048x16384 .f32 := Host.absf main_arg3
  let main_cst_4 : FVec F S_ .f32 := constant S_ .f32 0x7F800000#32
  let main_v15 : FVec F S2048x16384 .f32 := broadcastInDim S2048x16384 ![] bcast_S_S2048x16384 main_cst_4
  let main_v16 : IVec S2048x16384 1 := cmpf .olt main_v14 main_v15
  fn_part1 (F := F) main_arg4 main_arg5 main_arg6 main_arg7 main_arg8 main_arg9 main_v13 main_v16
-- ==== Kernel.lean ====
abbrev S2048x4096 : Shape := ⟨2, ![2048, 4096]⟩
abbrev S2048x16384 : Shape := ⟨2, ![2048, 16384]⟩
abbrev S4096x16384 : Shape := ⟨2, ![4096, 16384]⟩
abbrev S16384x4096 : Shape := ⟨2, ![16384, 4096]⟩
abbrev S128x4096 : Shape := ⟨2, ![128, 4096]⟩
abbrev S128x128 : Shape := ⟨2, ![128, 128]⟩
abbrev S4096x128 : Shape := ⟨2, ![4096, 128]⟩

abbrev nBuf : Space → Nat
  | .hbm => 12
  | .vmem => 22
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x16384, .f32⟩
  | .hbm, ⟨3, _⟩ => ⟨S2048x16384, .f32⟩
  | .hbm, ⟨4, _⟩ => ⟨S2048x16384, .f32⟩
  | .hbm, ⟨5, _⟩ => ⟨S2048x16384, .f32⟩
  | .hbm, ⟨6, _⟩ => ⟨S4096x16384, .f32⟩
  | .hbm, ⟨7, _⟩ => ⟨S16384x4096, .f32⟩
  | .hbm, ⟨8, _⟩ => ⟨S4096x16384, .f32⟩
  | .hbm, ⟨9, _⟩ => ⟨S4096x16384, .f32⟩
  | .hbm, ⟨10, _⟩ => ⟨S16384x4096, .bf16⟩
  | .hbm, ⟨11, _⟩ => ⟨S2048x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S128x4096, .bf16⟩
  | .local _ .vmem, ⟨19, _⟩ => ⟨S128x4096, .bf16⟩
  | .local _ .vmem, ⟨20, _⟩ => ⟨S128x4096, .f32⟩
  | .local _ .vmem, ⟨21, _⟩ => ⟨S128x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S128x4096_S128x4096 : S128x4096.ShapeCasts S128x4096
  dot_S128x4096_S4096x128_S128x128_1_0_0_1_n_n_wf : DotDims.WF S128x4096 S4096x128 S128x128 [1] [0] [0] [1] [] []
  dot_S128x128_S128x4096_S128x4096_1_0_0_1_n_n_wf : DotDims.WF S128x128 S128x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S2048x4096.size a
  hwx0_0 : ∀ i : grid0.Coords, EltTy.bits .f32 = 32 ∨ (Rect.block (s := S2048x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S2048x4096.size a
  hwx0_1 : ∀ i : grid0.Coords, EltTy.bits .f32 = 32 ∨ (Rect.block (s := S2048x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S2048x16384.size a
  hwx0_2 : ∀ i : grid0.Coords, EltTy.bits .f32 = 32 ∨ (Rect.block (s := S2048x16384) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S2048x16384.size a
  hwx0_3 : ∀ i : grid0.Coords, EltTy.bits .f32 = 32 ∨ (Rect.block (s := S2048x16384) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S2048x16384.size a
  hwx0_4 : ∀ i : grid0.Coords, EltTy.bits .f32 = 32 ∨ (Rect.block (s := S2048x16384) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S2048x16384.size a
  hwx0_5 : ∀ i : grid0.Coords, EltTy.bits .f32 = 32 ∨ (Rect.block (s := S2048x16384) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S4096x16384.size a
  hwx0_6 : ∀ i : grid0.Coords, EltTy.bits .f32 = 32 ∨ (Rect.block (s := S4096x16384) S4096x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S4096x16384.size a
  hwx0_7 : ∀ i : grid0.Coords, EltTy.bits .f32 = 32 ∨ (Rect.block (s := S4096x16384) S4096x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S4096x16384.size a
  hwx0_8 : ∀ i : grid0.Coords, EltTy.bits .f32 = 32 ∨ (Rect.block (s := S4096x16384) S4096x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x4096.size a ≤ S16384x4096.size a
  hwx0_9 : ∀ i : grid0.Coords, EltTy.bits .bf16 = 32 ∨ (Rect.block (s := S16384x4096) S128x4096.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x4096.size a ≤ S2048x4096.size a
  hwx0_10 : ∀ i : grid0.Coords, EltTy.bits .f32 = 32 ∨ (Rect.block (s := S2048x4096) S128x4096.size (cc0_transform_10 i) (hinb0_10 i)).WholeWords (EltTy.packing .f32)

variable [Facts₀]

def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf
def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4096x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S4096x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S4096x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0) S128x4096.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1) S128x4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S2048x16384 : Shape := ⟨2, ![2048, 16384]⟩
abbrev S4096x16384 : Shape := ⟨2, ![4096, 16384]⟩
abbrev S16384x4096 : Shape := ⟨2, ![16384, 4096]⟩
abbrev S_ : Shape := ⟨0, ![]⟩

abbrev nBuf : Space → Nat
  | .hbm => 96
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x16384, .f32⟩
  | .hbm, ⟨3, _⟩ => ⟨S2048x16384, .f32⟩
  | .hbm, ⟨4, _⟩ => ⟨S2048x16384, .f32⟩
  | .hbm, ⟨5, _⟩ => ⟨S2048x16384, .f32⟩
  | .hbm, ⟨6, _⟩ => ⟨S4096x16384, .f32⟩
  | .hbm, ⟨7, _⟩ => ⟨S16384x4096, .f32⟩
  | .hbm, ⟨8, _⟩ => ⟨S4096x16384, .f32⟩
  | .hbm, ⟨9, _⟩ => ⟨S4096x16384, .f32⟩
  | .hbm, ⟨10, _⟩ => ⟨S2048x16384, .f32⟩
  | .hbm, ⟨11, _⟩ => ⟨S2048x16384, .i1⟩
  | .hbm, ⟨12, _⟩ => ⟨S_, .f32⟩
  | .hbm, ⟨13, _⟩ => ⟨S2048x16384, .f32⟩
  | .hbm, ⟨14, _⟩ => ⟨S2048x16384, .f32⟩
  | .hbm, ⟨15, _⟩ => ⟨S2048x16384, .f32⟩
  | .hbm, ⟨16, _⟩ => ⟨S_, .f32⟩
  | .hbm, ⟨17, _⟩ => ⟨S2048x16384, .f32⟩
  | .hbm, ⟨18, _⟩ => ⟨S2048x16384, .f32⟩
  | .hbm, ⟨19, _⟩ => ⟨S2048x16384, .f32⟩
  | .hbm, ⟨20, _⟩ => ⟨S2048x16384, .f32⟩
  | .hbm, ⟨21, _⟩ => ⟨S2048x16384, .f32⟩
  | .hbm, ⟨22, _⟩ => ⟨S2048x16384, .i1⟩
  | .hbm, ⟨23, _⟩ => ⟨S_, .f32⟩
  | .hbm, ⟨24, _⟩ => ⟨S2048x16384, .f32⟩
  | .hbm, ⟨25, _⟩ => ⟨S2048x16384, .f32⟩
  | .hbm, ⟨26, _⟩ => ⟨S2048x16384, .f32⟩
  | .hbm, ⟨27, _⟩ => ⟨S_, .f32⟩
  | .hbm, ⟨28, _⟩ => ⟨S2048x16384, .f32⟩
  | .hbm, ⟨29, _⟩ => ⟨S2048x16384, .f32⟩
  | .hbm, ⟨30, _⟩ => ⟨S2048x16384, .f32⟩
  | .hbm, ⟨31, _⟩ => ⟨S2048x16384, .f32⟩
  | .hbm, ⟨32, _⟩ => ⟨S2048x16384, .f32⟩
  | .hbm, ⟨33, _⟩ => ⟨S2048x16384, .i1⟩
  | .hbm, ⟨34, _⟩ => ⟨S_, .f32⟩
  | .hbm, ⟨35, _⟩ => ⟨S2048x16384, .f32⟩
  | .hbm, ⟨36, _⟩ => ⟨S2048x16384, .f32⟩
  | .hbm, ⟨37, _⟩ => ⟨S2048x16384, .f32⟩
  | .hbm, ⟨38, _⟩ => ⟨S_, .f32⟩
  | .hbm, ⟨39, _⟩ => ⟨S2048x16384, .f32⟩
  | .hbm, ⟨40, _⟩ => ⟨S2048x16384, .f32⟩
  | .hbm, ⟨41, _⟩ => ⟨S2048x16384, .f32⟩
  | .hbm, ⟨42, _⟩ => ⟨S2048x16384, .f32⟩
  | .hbm, ⟨43, _⟩ => ⟨S2048x16384, .f32⟩
  | .hbm, ⟨44, _⟩ => ⟨S2048x16384, .i1⟩
  | .hbm, ⟨45, _⟩ => ⟨S_, .f32⟩
  | .hbm, ⟨46, _⟩ => ⟨S2048x16384, .f32⟩
  | .hbm, ⟨47, _⟩ => ⟨S2048x16384, .f32⟩
  | .hbm, ⟨48, _⟩ => ⟨S2048x16384, .f32⟩
  | .hbm, ⟨49, _⟩ => ⟨S_, .f32⟩
  | .hbm, ⟨50, _⟩ => ⟨S2048x16384, .f32⟩
  | .hbm, ⟨51, _⟩ => ⟨S2048x16384, .f32⟩
  | .hbm, ⟨52, _⟩ => ⟨S2048x16384, .f32⟩
  | .hbm, ⟨53, _⟩ => ⟨S2048x16384, .f32⟩
  | .hbm, ⟨54, _⟩ => ⟨S_, .f32⟩
  | .hbm, ⟨55, _⟩ => ⟨S2048x16384, .f32⟩
  | .hbm, ⟨56, _⟩ => ⟨S2048x16384, .i1⟩
  | .hbm, ⟨57, _⟩ => ⟨S_, .f32⟩
  | .hbm, ⟨58, _⟩ => ⟨S2048x16384, .f32⟩
  | .hbm, ⟨59, _⟩ => ⟨S2048x16384, .i1⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2048x16384, .f32⟩
  | .hbm, ⟨64, _⟩ => ⟨S2048x16384, .f32⟩
  | .hbm, ⟨65, _⟩ => ⟨S2048x16384, .f32⟩
  | .hbm, ⟨66, _⟩ => ⟨S_, .f32⟩
  | .hbm, ⟨67, _⟩ => ⟨S2048x16384, .f32⟩
  | .hbm, ⟨68, _⟩ => ⟨S2048x16384, .f32⟩
  | .hbm, ⟨69, _⟩ => ⟨S_, .f32⟩
  | .hbm, ⟨70, _⟩ => ⟨S2048x16384, .f32⟩
  | .hbm, ⟨71, _⟩ => ⟨S2048x16384, .i1⟩
  | .hbm, ⟨72, _⟩ => ⟨S_, .f32⟩
  | .hbm, ⟨73, _⟩ => ⟨S2048x16384, .f32⟩
  | .hbm, ⟨74, _⟩ => ⟨S2048x16384, .i1⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S2048x16384, .f32⟩
  | .hbm, ⟨79, _⟩ => ⟨S2048x16384, .f32⟩
  | .hbm, ⟨80, _⟩ => ⟨S2048x16384, .f32⟩
  | .hbm, ⟨81, _⟩ => ⟨S_, .f32⟩
  | .hbm, ⟨82, _⟩ => ⟨S2048x16384, .f32⟩
  | .hbm, ⟨83, _⟩ => ⟨S2048x16384, .f32⟩
  | .hbm, ⟨84, _⟩ => ⟨S_, .f32⟩
  | .hbm, ⟨85, _⟩ => ⟨S2048x16384, .f32⟩
  | .hbm, ⟨86, _⟩ => ⟨S2048x16384, .i1⟩
  | .hbm, ⟨87, _⟩ => ⟨S2048x16384, .f32⟩
  | .hbm, ⟨88, _⟩ => ⟨S2048x16384, .f32⟩
  | .hbm, ⟨89, _⟩ => ⟨S_, .f32⟩
  | .hbm, ⟨90, _⟩ => ⟨S2048x16384, .f32⟩
  | .hbm, ⟨91, _⟩ => ⟨S2048x16384, .i1⟩
  | .hbm, ⟨92, _⟩ => ⟨S2048x16384, .f32⟩
  | .hbm, ⟨93, _⟩ => ⟨S2048x16384, .f32⟩
  | .hbm, ⟨94, _⟩ => ⟨S2048x16384, .f32⟩
  | .hbm, ⟨95, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_cst_10 : Ref sig .tc := ⟨.hbm, 62, rfl⟩
abbrev main_call4_v0 : Ref sig .tc := ⟨.hbm, 63, rfl⟩
abbrev main_call4_v1 : Ref sig .tc := ⟨.hbm, 64, rfl⟩
abbrev main_v41 : Ref sig .tc := ⟨.hbm, 65, rfl⟩
abbrev main_cst_11 : Ref sig .tc := ⟨.hbm, 66, rfl⟩
abbrev main_call5_v0 : Ref sig .tc := ⟨.hbm, 67, rfl⟩
abbrev main_v42 : Ref sig .tc := ⟨.hbm, 68, rfl⟩
abbrev main_cst_12 : Ref sig .tc := ⟨.hbm, 69, rfl⟩
abbrev main_v43 : Ref sig .tc := ⟨.hbm, 70, rfl⟩
abbrev main_v44 : Ref sig .tc := ⟨.hbm, 71, rfl⟩
abbrev main_cst_13 : Ref sig .tc := ⟨.hbm, 72, rfl⟩
abbrev main_v45 : Ref sig .tc := ⟨.hbm, 73, rfl⟩
abbrev main_v46 : Ref sig .tc := ⟨.hbm, 74, rfl⟩
abbrev main_cst_14 : Ref sig .tc := ⟨.hbm, 75, rfl⟩
abbrev main_v47 : Ref sig .tc := ⟨.hbm, 76, rfl⟩
abbrev main_cst_15 : Ref sig .tc := ⟨.hbm, 77, rfl⟩
abbrev main_call6_v0 : Ref sig .tc := ⟨.hbm, 78, rfl⟩
abbrev main_call6_v1 : Ref sig .tc := ⟨.hbm, 79, rfl⟩
abbrev main_v48 : Ref sig .tc := ⟨.hbm, 80, rfl⟩
abbrev main_cst_16 : Ref sig .tc := ⟨.hbm, 81, rfl⟩
abbrev main_call7_v0 : Ref sig .tc := ⟨.hbm, 82, rfl⟩
abbrev main_v49 : Ref sig .tc := ⟨.hbm, 83, rfl⟩
abbrev main_cst_17 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_18 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  bcast_S_S2048x16384 : S_.BroadcastsInDim S2048x16384 (![] : Fin 0 → Fin S2048x16384.rank)
  dot_S2048x4096_S4096x16384_S2048x16384_1_0_0_1_n_n_wf : DotDims.WF S2048x4096 S4096x16384 S2048x16384 [1] [0] [0] [1] [] []
  dot_S2048x16384_S16384x4096_S2048x4096_1_0_0_1_n_n_wf : DotDims.WF S2048x16384 S16384x4096 S2048x4096 [1] [0] [0] [1] [] []

variable [Facts₀]

def dot_S2048x4096_S4096x16384_S2048x16384_1_0_0_1_n_n : DotDims S2048x4096 S4096x16384 S2048x16384 where
  lhsContracting := [1]
  rhsContracting := [0]
  lhsNonContracting := [0]
  rhsNonContracting := [1]
  lhsBatch := []
  rhsBatch := []
  wf := dot_S2048x4096_S4096x16384_S2048x16384_1_0_0_1_n_n_wf
def dot_S2048x16384_S16384x4096_S2048x4096_1_0_0_1_n_n : DotDims S2048x16384 S16384x4096 S2048x4096 where
  lhsContracting := [1]
  rhsContracting := [0]
  lhsNonContracting := [0]
  rhsNonContracting := [1]
  lhsBatch := []
  rhsBatch := []
  wf := dot_S2048x16384_S16384x4096_S2048x4096_1_0_0_1_n_n_wf

class Facts : Prop extends Facts₀ where

variable [Facts]
-- ==== Proof.SpikeSpec.lean ====
/-
  The function both programs compute, stated once over the extended reals, with no program in sight.

  Ten arrays enter: two patterns `sem`, `phon` of shape [2048, 4096]; four stored states `psa`, `ppa`, `psr`, `ppr` of
  shape [2048, 16384]; three first-layer weights `w1`, `wsr`, `wpr` of shape [4096, 16384]; and the second-layer weight
  `w2` of shape [16384, 4096]. For a row `b` and a hidden unit `f`:

    * a projection is the plain sum  `∑ d, x b d · w d f`  over the 4096 model coordinates;
    * `mix p s` keeps the larger of the projection `p` and the stored value `s` and adds a tenth of the other;
    * `spike x` is the ternary sign of `x` (1 above zero, -1 below, 0 at zero);
    * `gate r s` keeps `s` where the receptance `r` is above zero and negates it elsewhere;
    * the hidden activation is the sum of the two gated spikes, semantic and phonetic,
    * and the result at `(b, d)` is  `∑ f, hidden b f · w2 f d`  over all 16384 hidden units.

  The two programs spell two of these steps differently: minus one is a literal in one and the negation of the
  literal one in the other, and the negated spike is `0 - s` in one and `-s` in the other. On the extended reals both
  pairs are equal at every value (`spikeLit_eq`, `gateSub_eq`), infinite ones included, so nothing here asks the
  inputs to be finite. The last sum is taken by one program in 128 consecutive blocks of 128 hidden units, added one
  after the other onto zero: `sum_blocks` is that regrouping, which holds in any commutative monoid.
-/
import Idealize.ShloMosaic.PureOps.Ideal
import Idealize.ShloMosaic.PureOps.Ideal.Laws
import Idealize.ShloMosaic.PureOps.IdealRules
import Idealize.ShloMosaic.Lib.ValueIdx

noncomputable section

namespace Cert.SpikeGate

open Idealize.ShloMosaic Idealize.ShloMosaic.ValueIdx
open scoped BigOperators

/-! ## The scalar steps -/

/-- The mixing weight: the f32 nearest one tenth. Both programs write this same word, so its value is never needed. -/
abbrev tenth : Ideal .f32 := FloatOps.ofBits (F := Ideal) .f32 0x3DCCCCCD#32
/-- Zero, and the negative-zero word (which also denotes zero; both programs compare against the same word). -/
abbrev zero : Ideal .f32 := FloatOps.ofBits (F := Ideal) .f32 0x00000000#32
abbrev negZero : Ideal .f32 := FloatOps.ofBits (F := Ideal) .f32 0x80000000#32
abbrev one : Ideal .f32 := FloatOps.ofBits (F := Ideal) .f32 0x3F800000#32
abbrev negOneLit : Ideal .f32 := FloatOps.ofBits (F := Ideal) .f32 0xBF800000#32

/-- Temporal mixing: the larger of `p` and `s` plus a tenth of the other. -/
def mix (p s : Ideal .f32) : Ideal .f32 :=
  Scalar.select (FloatOps.cmpf .ogt p s) (FloatOps.addf p (FloatOps.mulf tenth s)) (FloatOps.addf s (FloatOps.mulf tenth p))

/-- The ternary sign with minus one written as the negation of one. -/
def spike (x : Ideal .f32) : Ideal .f32 :=
  Scalar.select (FloatOps.cmpf .ogt x zero) one (Scalar.select (FloatOps.cmpf .olt x negZero) (FloatOps.hostNegf one) zero)

/-- The ternary sign with minus one written as a literal. -/
def spikeLit (x : Ideal .f32) : Ideal .f32 :=
  Scalar.select (FloatOps.cmpf .ogt x zero) one (Scalar.select (FloatOps.cmpf .olt x negZero) negOneLit zero)

/-- The receptance gate with the negation written `-s`. -/
def gate (r s : Ideal .f32) : Ideal .f32 :=
  Scalar.select (FloatOps.cmpf .ogt r zero) s (FloatOps.hostNegf s)

/-- The receptance gate with the negation written `0 - s`. -/
def gateSub (r s : Ideal .f32) : Ideal .f32 :=
  Scalar.select (FloatOps.cmpf .ogt r zero) s (FloatOps.subf zero s)

/-- The literal minus one is the negation of the literal one: both denote the real -1. -/
theorem negOneLit_eq : negOneLit = FloatOps.hostNegf one := by
  show Ideal.ofBits .f32 0xBF800000#32 = -(Ideal.ofBits .f32 0x3F800000#32)
  have h1 : Ideal.ofBits .f32 0xBF800000#32 = -1 := IdealRules.sign_bit.ideal_negOnePat .f32
  have h2 : Ideal.ofBits .f32 0x3F800000#32 = 1 := IdealRules.sign_bit.ideal_onePat .f32
  rw [h1, h2]

theorem spikeLit_eq (x : Ideal .f32) : spikeLit x = spike x := by
  unfold spikeLit spike; rw [negOneLit_eq]

/-- `0 - s = -s` at every extended real, the infinities included. -/
theorem gateSub_eq (r s : Ideal .f32) : gateSub r s = gate r s := by
  unfold gateSub gate
  show Scalar.select _ s (Ideal.ofBits .f32 0x00000000#32 - s) = Scalar.select _ s (-s)
  rw [Ideal.ofBits_zero_f32, zero_sub]

/-- The hidden activation at one (row, unit) from the four projections and the four stored values there. -/
def hidden (psr sr psh sh ppr pr pph ph : Ideal .f32) : Ideal .f32 :=
  FloatOps.addf (gate (mix psr sr) (spike (mix psh sh))) (gate (mix ppr pr) (spike (mix pph ph)))

/-- The same with the literal minus one and `0 - s`. -/
def hiddenLit (psr sr psh sh ppr pr pph ph : Ideal .f32) : Ideal .f32 :=
  FloatOps.addf (gateSub (mix psr sr) (spikeLit (mix psh sh))) (gateSub (mix ppr pr) (spikeLit (mix pph ph)))

theorem hiddenLit_eq (psr sr psh sh ppr pr pph ph : Ideal .f32) :
    hiddenLit psr sr psh sh ppr pr pph ph = hidden psr sr psh sh ppr pr pph ph := by
  unfold hiddenLit hidden; rw [gateSub_eq, gateSub_eq, spikeLit_eq, spikeLit_eq]

/-! ## A sum over 16384 terms, taken in 128 consecutive blocks of 128 -/

theorem sum_blocks (g : ℕ → EReal) :
    ∑ f : Fin 16384, g f.val = ∑ s ∈ Finset.range 128, ∑ k : Fin 128, g (128 * s + k.val) := by
  rw [← Fin.sum_univ_eq_sum_range (fun s => ∑ k : Fin 128, g (128 * s + k.val)) 128]
  show ∑ f : Fin (128 * 128), g f.val = _
  rw [← (finProdFinEquiv (m := 128) (n := 128)).sum_comp, Fintype.sum_prod_type]
  refine Finset.sum_congr rfl fun s _ => Finset.sum_congr rfl fun k _ => ?_
  rw [finProdFinEquiv_apply_val, Nat.add_comm]

/-! ## The whole-array function -/

/-- The ten argument arrays. -/
structure Args where
  sem : FVec Ideal ⟨2, ![2048, 4096]⟩ .f32
  phon : FVec Ideal ⟨2, ![2048, 4096]⟩ .f32
  psa : FVec Ideal ⟨2, ![2048, 16384]⟩ .f32
  ppa : FVec Ideal ⟨2, ![2048, 16384]⟩ .f32
  psr : FVec Ideal ⟨2, ![2048, 16384]⟩ .f32
  ppr : FVec Ideal ⟨2, ![2048, 16384]⟩ .f32
  w1 : FVec Ideal ⟨2, ![4096, 16384]⟩ .f32
  w2 : FVec Ideal ⟨2, ![16384, 4096]⟩ .f32
  wsr : FVec Ideal ⟨2, ![4096, 16384]⟩ .f32
  wpr : FVec Ideal ⟨2, ![4096, 16384]⟩ .f32

/-- A first-layer projection at row `b`, hidden unit `f`. -/
def proj (x : FVec Ideal ⟨2, ![2048, 4096]⟩ .f32) (w : FVec Ideal ⟨2, ![4096, 16384]⟩ .f32) (b : Fin 2048) (f : Fin 16384) : EReal :=
  ∑ d : Fin 4096, x (ix2 b d) * w (ix2 d f)

/-- The hidden activation at row `b`, unit `f`. -/
def hiddenAt (A : Args) (b : Fin 2048) (f : Fin 16384) : EReal :=
  hidden (proj A.sem A.wsr b f) (A.psr (ix2 b f)) (proj A.sem A.w1 b f) (A.psa (ix2 b f))
    (proj A.phon A.wpr b f) (A.ppr (ix2 b f)) (proj A.phon A.w1 b f) (A.ppa (ix2 b f))

/-- The result array: the hidden activations times the second-layer weight. -/
def out (A : Args) : FVec Ideal ⟨2, ![2048, 4096]⟩ .f32 := fun i =>
  ∑ f : Fin 16384, hiddenAt A (i 0) f * A.w2 (ix2 f (i 1))

end Cert.SpikeGate

end
-- ==== Proof.RefValue.lean ====
/-
  The reference program computes the specified function.

  Its run ends with the result array at the composed term of its 86 host operations. Read one operation at a time,
  that term at a result index `(b, d)` is the sum over the 16384 hidden units `f` of the hidden activation at
  `(b, f)` times `w2 f d`; the hidden activation is the gated-spike expression of four projections, each a sum over
  the 4096 model coordinates, and of the four stored states at `(b, f)`. Scalars that the program broadcasts are the
  same value at every index, so the pointwise part agrees with the specification's scalar steps by unfolding; the
  only work is naming the operand indices of the five contractions by their (row, column) coordinates.
-/
import proofs.«134992_j90314572300882_2_alg».proof.Proof.Gen.ReferenceIdeal.Read
import proofs.«134992_j90314572300882_2_alg».proof.Proof.SpikeSpec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.SpikeGate
open scoped BigOperators

/-- An index of a rank-two array is its two coordinates. -/
theorem pair_eq {n0 n1 : Nat} (j : (⟨2, ![n0, n1]⟩ : Shape).Idx) (a : Fin n0) (b : Fin n1) (h0 : (j 0).val = a.val) (h1 : (j 1).val = b.val) :
    j = ix2 a b :=
  funext fun d => Fin.ext (by match d with | ⟨0, _⟩ => exact h0 | ⟨1, _⟩ => exact h1)

/-- The semantic receptance projection. -/
theorem proj_sr (x0 : FVec Ideal S2048x4096 .f32) (x8 : FVec Ideal S4096x16384 .f32) (i : S2048x16384.Idx) :
    val_main_v0 (F := Ideal) x0 x8 i = proj x0 x8 (i 0) (i 1) := by
  rw [val_main_v0_apply]; unfold proj
  refine Finset.sum_congr rfl fun k _ => ?_
  rw [pair_eq (lidx_main_v0 i k) (i 0) k rfl rfl, pair_eq (ridx_main_v0 i k) k (i 1) rfl rfl]

/-- The phonetic receptance projection. -/
theorem proj_pr (x1 : FVec Ideal S2048x4096 .f32) (x9 : FVec Ideal S4096x16384 .f32) (i : S2048x16384.Idx) :
    val_main_v9 (F := Ideal) x1 x9 i = proj x1 x9 (i 0) (i 1) := by
  rw [val_main_v9_apply]; unfold proj
  refine Finset.sum_congr rfl fun k _ => ?_
  rw [pair_eq (lidx_main_v9 i k) (i 0) k rfl rfl, pair_eq (ridx_main_v9 i k) k (i 1) rfl rfl]

/-- The semantic hidden projection. -/
theorem proj_sh (x0 : FVec Ideal S2048x4096 .f32) (x6 : FVec Ideal S4096x16384 .f32) (i : S2048x16384.Idx) :
    val_main_v18 (F := Ideal) x0 x6 i = proj x0 x6 (i 0) (i 1) := by
  rw [val_main_v18_apply]; unfold proj
  refine Finset.sum_congr rfl fun k _ => ?_
  rw [pair_eq (lidx_main_v18 i k) (i 0) k rfl rfl, pair_eq (ridx_main_v18 i k) k (i 1) rfl rfl]

/-- The phonetic hidden projection. -/
theorem proj_ph (x1 : FVec Ideal S2048x4096 .f32) (x6 : FVec Ideal S4096x16384 .f32) (i : S2048x16384.Idx) :
    val_main_v27 (F := Ideal) x1 x6 i = proj x1 x6 (i 0) (i 1) := by
  rw [val_main_v27_apply]; unfold proj
  refine Finset.sum_congr rfl fun k _ => ?_
  rw [pair_eq (lidx_main_v27 i k) (i 0) k rfl rfl, pair_eq (ridx_main_v27 i k) k (i 1) rfl rfl]

/-- The hidden activation the program forms, at one index, is the specification's scalar expression of the four
    projections and the four stored values there: every broadcast scalar is one value at all indices. -/
theorem hidden_eq (x0 x1 : FVec Ideal S2048x4096 .f32) (x2 x3 x4 x5 : FVec Ideal S2048x16384 .f32)
    (x6 x8 x9 : FVec Ideal S4096x16384 .f32) (i : S2048x16384.Idx) :
    val_main_v58 (F := Ideal) x0 x1 x2 x3 x4 x5 x6 x8 x9 i
      = hidden (val_main_v0 (F := Ideal) x0 x8 i) (x4 i) (val_main_v18 (F := Ideal) x0 x6 i) (x2 i)
          (val_main_v9 (F := Ideal) x1 x9 i) (x5 i) (val_main_v27 (F := Ideal) x1 x6 i) (x3 i) := rfl

/-- The reference's result stage is the specified array function of its ten arguments. -/
theorem stage_eq_out (x0 x1 : FVec Ideal S2048x4096 .f32) (x2 x3 x4 x5 : FVec Ideal S2048x16384 .f32)
    (x6 : FVec Ideal S4096x16384 .f32) (x7 : FVec Ideal S16384x4096 .f32) (x8 x9 : FVec Ideal S4096x16384 .f32) :
    val_main_v59 (F := Ideal) x0 x1 x2 x3 x4 x5 x6 x7 x8 x9 = out ⟨x0, x1, x2, x3, x4, x5, x6, x7, x8, x9⟩ := by
  funext i
  rw [val_main_v59_apply]
  unfold out
  refine Finset.sum_congr rfl fun k _ => ?_
  rw [pair_eq (lidx_main_v59 i k) (i 0) k rfl rfl, pair_eq (ridx_main_v59 i k) k (i 1) rfl rfl,
    hidden_eq, proj_sr, proj_sh, proj_pr, proj_ph]
  rfl

end Cert.ReferenceIdeal.RefValue

end
-- ==== Proof.BlockReads.lean ====
/-
  Where each grid point reads.

  The grid has 16 × 128 points, visited row-major: point `t` works on the row block `t / 128` (128 consecutive rows
  of the batch) and the hidden block `t % 128` (128 consecutive hidden units). Its ten input blocks are rectangles of
  the argument arrays:

    * the two patterns: rows `128·(t/128) + p`, all 4096 columns;
    * the four stored states: rows `128·(t/128) + p`, columns `128·(t%128) + k`;
    * the three first-layer weights: all 4096 rows, columns `128·(t%128) + k`;
    * the second-layer weight: rows `128·(t%128) + k`, all 4096 columns — read from the array the program's one host
      operation produced, the narrowing of `w2` to a shorter float format, which on the extended reals changes nothing.

  A block's coordinate along an axis is the block index times the block's extent plus the coordinate inside the block;
  the block indices are the printed index maps, read off once for all 2048 points.
-/
import proofs.«134992_j90314572300882_2_alg».proof.Proof.Gen.KernelIdeal.Frame
import Idealize.ShloMosaic.Lib.ValueIdx
import Idealize.ShloMosaic.Lib.StableHlo.Run

noncomputable section

namespace Cert.KernelIdeal.BlockReads

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The block indices, for every point of the grid -/

/-- The patterns' blocks: row block `t / 128`, the one column block. -/
theorem idx_pattern : ∀ t : Fin cfg0.N,
    win0_0.index t (0 : Fin 2) = t.val / 128 ∧ win0_0.index t (1 : Fin 2) = 0
    ∧ win0_1.index t (0 : Fin 2) = t.val / 128 ∧ win0_1.index t (1 : Fin 2) = 0 :=
  (by decide +kernel : ∀ t : Fin grid0.N, _)

/-- The stored states' blocks: row block `t / 128`, column block `t % 128`. -/
theorem idx_state : ∀ t : Fin cfg0.N,
    win0_2.index t (0 : Fin 2) = t.val / 128 ∧ win0_2.index t (1 : Fin 2) = t.val % 128
    ∧ win0_3.index t (0 : Fin 2) = t.val / 128 ∧ win0_3.index t (1 : Fin 2) = t.val % 128
    ∧ win0_4.index t (0 : Fin 2) = t.val / 128 ∧ win0_4.index t (1 : Fin 2) = t.val % 128
    ∧ win0_5.index t (0 : Fin 2) = t.val / 128 ∧ win0_5.index t (1 : Fin 2) = t.val % 128 :=
  (by decide +kernel : ∀ t : Fin grid0.N, _)

/-- The weights' blocks: the first layer's at column block `t % 128`, the second layer's at row block `t % 128`. -/
theorem idx_weight : ∀ t : Fin cfg0.N,
    win0_6.index t (0 : Fin 2) = 0 ∧ win0_6.index t (1 : Fin 2) = t.val % 128
    ∧ win0_7.index t (0 : Fin 2) = 0 ∧ win0_7.index t (1 : Fin 2) = t.val % 128
    ∧ win0_8.index t (0 : Fin 2) = 0 ∧ win0_8.index t (1 : Fin 2) = t.val % 128
    ∧ win0_9.index t (0 : Fin 2) = t.val % 128 ∧ win0_9.index t (1 : Fin 2) = 0 :=
  (by decide +kernel : ∀ t : Fin grid0.N, _)

/-! ## The array the second-layer weight is staged from -/

/-- The region finds, in the buffer its tenth window stages, `w2` itself: the host's narrowing is the identity on
    extended reals. -/
theorem narrowed_w2 (c : Dev nD) : (V m c main_v0 : S16384x4096.Idx → EReal) = m ((c : Thread nD τ).loc main_arg7) := by
  dsimp only [Gen.V, Gen.hostOps0]
  after_results
  rfl

/-! ## Each block, read at an index -/

/-- Semantic pattern. -/
theorem sem_at (c : Dev nD) (t : Fin cfg0.N) (y : S128x4096.Idx) (i : S2048x4096.Idx)
    (h0 : (i 0).val = 128 * (t.val / 128) + (y 0).val) (h1 : (i 1).val = (y 1).val) :
    iblk m c 0 t y = m ((c : Thread nD τ).loc main_arg0) i := by
  show V m c main_arg0 (((cfg0.win 0).blk t).view.emb y) = _
  rw [V_main_arg0]
  refine congrArg _ (funext fun a => Fin.ext ?_)
  obtain ⟨e0, e1, -, -⟩ := idx_pattern t
  match a with
  | ⟨0, _⟩ => show win0_0.index t (0 : Fin 2) * 128 + 1 * (y 0).val = (i 0).val; omega
  | ⟨1, _⟩ => show win0_0.index t (1 : Fin 2) * 4096 + 1 * (y 1).val = (i 1).val; omega

/-- Phonetic pattern. -/
theorem phon_at (c : Dev nD) (t : Fin cfg0.N) (y : S128x4096.Idx) (i : S2048x4096.Idx)
    (h0 : (i 0).val = 128 * (t.val / 128) + (y 0).val) (h1 : (i 1).val = (y 1).val) :
    iblk m c 1 t y = m ((c : Thread nD τ).loc main_arg1) i := by
  show V m c main_arg1 (((cfg0.win 1).blk t).view.emb y) = _
  rw [V_main_arg1]
  refine congrArg _ (funext fun a => Fin.ext ?_)
  obtain ⟨-, -, e0, e1⟩ := idx_pattern t
  match a with
  | ⟨0, _⟩ => show win0_1.index t (0 : Fin 2) * 128 + 1 * (y 0).val = (i 0).val; omega
  | ⟨1, _⟩ => show win0_1.index t (1 : Fin 2) * 4096 + 1 * (y 1).val = (i 1).val; omega

/-- Stored semantic activation. -/
theorem psa_at (c : Dev nD) (t : Fin cfg0.N) (y : S128x128.Idx) (i : S2048x16384.Idx)
    (h0 : (i 0).val = 128 * (t.val / 128) + (y 0).val) (h1 : (i 1).val = 128 * (t.val % 128) + (y 1).val) :
    iblk m c 2 t y = m ((c : Thread nD τ).loc main_arg2) i := by
  show V m c main_arg2 (((cfg0.win 2).blk t).view.emb y) = _
  rw [V_main_arg2]
  refine congrArg _ (funext fun a => Fin.ext ?_)
  obtain ⟨e0, e1, -⟩ := idx_state t
  match a with
  | ⟨0, _⟩ => show win0_2.index t (0 : Fin 2) * 128 + 1 * (y 0).val = (i 0).val; omega
  | ⟨1, _⟩ => show win0_2.index t (1 : Fin 2) * 128 + 1 * (y 1).val = (i 1).val; omega

/-- Stored phonetic activation. -/
theorem ppa_at (c : Dev nD) (t : Fin cfg0.N) (y : S128x128.Idx) (i : S2048x16384.Idx)
    (h0 : (i 0).val = 128 * (t.val / 128) + (y 0).val) (h1 : (i 1).val = 128 * (t.val % 128) + (y 1).val) :
    iblk m c 3 t y = m ((c : Thread nD τ).loc main_arg3) i := by
  show V m c main_arg3 (((cfg0.win 3).blk t).view.emb y) = _
  rw [V_main_arg3]
  refine congrArg _ (funext fun a => Fin.ext ?_)
  obtain ⟨-, -, e0, e1, -⟩ := idx_state t
  match a with
  | ⟨0, _⟩ => show win0_3.index t (0 : Fin 2) * 128 + 1 * (y 0).val = (i 0).val; omega
  | ⟨1, _⟩ => show win0_3.index t (1 : Fin 2) * 128 + 1 * (y 1).val = (i 1).val; omega

/-- Stored semantic receptance. -/
theorem psr_at (c : Dev nD) (t : Fin cfg0.N) (y : S128x128.Idx) (i : S2048x16384.Idx)
    (h0 : (i 0).val = 128 * (t.val / 128) + (y 0).val) (h1 : (i 1).val = 128 * (t.val % 128) + (y 1).val) :
    iblk m c 4 t y = m ((c : Thread nD τ).loc main_arg4) i := by
  show V m c main_arg4 (((cfg0.win 4).blk t).view.emb y) = _
  rw [V_main_arg4]
  refine congrArg _ (funext fun a => Fin.ext ?_)
  obtain ⟨-, -, -, -, e0, e1, -⟩ := idx_state t
  match a with
  | ⟨0, _⟩ => show win0_4.index t (0 : Fin 2) * 128 + 1 * (y 0).val = (i 0).val; omega
  | ⟨1, _⟩ => show win0_4.index t (1 : Fin 2) * 128 + 1 * (y 1).val = (i 1).val; omega

/-- Stored phonetic receptance. -/
theorem ppr_at (c : Dev nD) (t : Fin cfg0.N) (y : S128x128.Idx) (i : S2048x16384.Idx)
    (h0 : (i 0).val = 128 * (t.val / 128) + (y 0).val) (h1 : (i 1).val = 128 * (t.val % 128) + (y 1).val) :
    iblk m c 5 t y = m ((c : Thread nD τ).loc main_arg5) i := by
  show V m c main_arg5 (((cfg0.win 5).blk t).view.emb y) = _
  rw [V_main_arg5]
  refine congrArg _ (funext fun a => Fin.ext ?_)
  obtain ⟨-, -, -, -, -, -, e0, e1⟩ := idx_state t
  match a with
  | ⟨0, _⟩ => show win0_5.index t (0 : Fin 2) * 128 + 1 * (y 0).val = (i 0).val; omega
  | ⟨1, _⟩ => show win0_5.index t (1 : Fin 2) * 128 + 1 * (y 1).val = (i 1).val; omega

/-- Shared first-layer weight. -/
theorem w1_at (c : Dev nD) (t : Fin cfg0.N) (y : S4096x128.Idx) (i : S4096x16384.Idx)
    (h0 : (i 0).val = (y 0).val) (h1 : (i 1).val = 128 * (t.val % 128) + (y 1).val) :
    iblk m c 6 t y = m ((c : Thread nD τ).loc main_arg6) i := by
  show V m c main_arg6 (((cfg0.win 6).blk t).view.emb y) = _
  rw [V_main_arg6]
  refine congrArg _ (funext fun a => Fin.ext ?_)
  obtain ⟨e0, e1, -⟩ := idx_weight t
  match a with
  | ⟨0, _⟩ => show win0_6.index t (0 : Fin 2) * 4096 + 1 * (y 0).val = (i 0).val; omega
  | ⟨1, _⟩ => show win0_6.index t (1 : Fin 2) * 128 + 1 * (y 1).val = (i 1).val; omega

/-- Semantic receptance weight. -/
theorem wsr_at (c : Dev nD) (t : Fin cfg0.N) (y : S4096x128.Idx) (i : S4096x16384.Idx)
    (h0 : (i 0).val = (y 0).val) (h1 : (i 1).val = 128 * (t.val % 128) + (y 1).val) :
    iblk m c 7 t y = m ((c : Thread nD τ).loc main_arg8) i := by
  show V m c main_arg8 (((cfg0.win 7).blk t).view.emb y) = _
  rw [V_main_arg8]
  refine congrArg _ (funext fun a => Fin.ext ?_)
  obtain ⟨-, -, e0, e1, -⟩ := idx_weight t
  match a with
  | ⟨0, _⟩ => show win0_7.index t (0 : Fin 2) * 4096 + 1 * (y 0).val = (i 0).val; omega
  | ⟨1, _⟩ => show win0_7.index t (1 : Fin 2) * 128 + 1 * (y 1).val = (i 1).val; omega

/-- Phonetic receptance weight. -/
theorem wpr_at (c : Dev nD) (t : Fin cfg0.N) (y : S4096x128.Idx) (i : S4096x16384.Idx)
    (h0 : (i 0).val = (y 0).val) (h1 : (i 1).val = 128 * (t.val % 128) + (y 1).val) :
    iblk m c 8 t y = m ((c : Thread nD τ).loc main_arg9) i := by
  show V m c main_arg9 (((cfg0.win 8).blk t).view.emb y) = _
  rw [V_main_arg9]
  refine congrArg _ (funext fun a => Fin.ext ?_)
  obtain ⟨-, -, -, -, e0, e1, -⟩ := idx_weight t
  match a with
  | ⟨0, _⟩ => show win0_8.index t (0 : Fin 2) * 4096 + 1 * (y 0).val = (i 0).val; omega
  | ⟨1, _⟩ => show win0_8.index t (1 : Fin 2) * 128 + 1 * (y 1).val = (i 1).val; omega

/-- Second-layer weight, through the narrowed copy. -/
theorem w2_at (c : Dev nD) (t : Fin cfg0.N) (y : S128x4096.Idx) (i : S16384x4096.Idx)
    (h0 : (i 0).val = 128 * (t.val % 128) + (y 0).val) (h1 : (i 1).val = (y 1).val) :
    iblk m c 9 t y = m ((c : Thread nD τ).loc main_arg7) i := by
  show V m c main_v0 (((cfg0.win 9).blk t).view.emb y) = _
  rw [narrowed_w2]
  refine congrArg _ (funext fun a => Fin.ext ?_)
  obtain ⟨-, -, -, -, -, -, e0, e1⟩ := idx_weight t
  match a with
  | ⟨0, _⟩ => show win0_9.index t (0 : Fin 2) * 128 + 1 * (y 0).val = (i 0).val; omega
  | ⟨1, _⟩ => show win0_9.index t (1 : Fin 2) * 4096 + 1 * (y 1).val = (i 1).val; omega

end Cert.KernelIdeal.BlockReads

end
-- ==== Proof.PointBody.lean ====
/-
  What one grid point adds to its output block.

  At a grid point the body holds ten input blocks: two pattern blocks `x0`, `x1` ([128, 4096]), four stored-state
  blocks `x2 … x5` ([128, 128]), three first-layer weight blocks `x6`, `x7`, `x8` ([4096, 128]) and one second-layer
  weight block `x9` ([128, 4096]). It forms four [128, 128] products of a pattern block with a weight block, mixes each
  with a stored state, takes ternary signs of two of the mixes and gates them by the signs of the other two, adds the
  two gated blocks, and multiplies the sum by `x9`; that product is added to what the output block held.

  Read at the block entry `(p, q)`: the block's previous entry plus the sum over the 128 hidden units `k` of the block
  of the hidden activation at `(p, k)` times `x9 (k, q)`; each of the four products entering the hidden activation at
  `(p, k)` is the sum over the 4096 model coordinates `d` of `x (p, d) · w (d, k)`. A matrix product into a zero
  accumulator is exactly that sum on the extended reals, and narrowing the hidden block to a shorter float format
  before the last product changes nothing there.
-/
import proofs.«134992_j90314572300882_2_alg».proof.Proof.Gen.KernelIdeal.Skeleton
import proofs.«134992_j90314572300882_2_alg».proof.Proof.SpikeSpec
import Idealize.ShloMosaic.Lib.ValueIdx
import Idealize.ShloMosaic.Lib.Pipeline.Value
import Idealize.ShloMosaic.PureOps.Ideal.Laws

noncomputable section

namespace Cert.KernelIdeal.PointBody

open Cert.KernelIdeal Cert.KernelIdeal.Gen Idealize.ShloMosaic Idealize.ShloMosaic.ValueIdx Cert.SpikeGate
open scoped BigOperators

/-! ## The two matrix products at an entry -/

/-- The operand indices of the first-layer product `[128, 4096] × [4096, 128]`: the left operand is read at the result's
    row, the right one at the result's column. -/
theorem first_lhs_row (i : S128x128.Idx) (q : dot_S128x4096_S4096x128_S128x128_1_0_0_1_n_n.contr.Idx) : (dot_S128x4096_S4096x128_S128x128_1_0_0_1_n_n.lhsIdx i q 0).val = (i 0).val := by
  unfold DotDims.lhsIdx
  rw [dif_neg (show ¬(0 : Fin S128x4096.rank) ∈ dot_S128x4096_S4096x128_S128x128_1_0_0_1_n_n.lhsBatch by decide),
    dif_pos (show (0 : Fin S128x4096.rank) ∈ dot_S128x4096_S4096x128_S128x128_1_0_0_1_n_n.lhsNonContracting by decide)]
  rfl
theorem first_rhs_col (i : S128x128.Idx) (q : dot_S128x4096_S4096x128_S128x128_1_0_0_1_n_n.contr.Idx) : (dot_S128x4096_S4096x128_S128x128_1_0_0_1_n_n.rhsIdx i q 1).val = (i 1).val := by
  unfold DotDims.rhsIdx
  rw [dif_neg (show ¬(1 : Fin S4096x128.rank) ∈ dot_S128x4096_S4096x128_S128x128_1_0_0_1_n_n.rhsBatch by decide),
    dif_pos (show (1 : Fin S4096x128.rank) ∈ dot_S128x4096_S4096x128_S128x128_1_0_0_1_n_n.rhsNonContracting by decide)]
  rfl

/-- The same for the second-layer product `[128, 128] × [128, 4096]`. -/
theorem second_lhs_row (i : S128x4096.Idx) (q : dot_S128x128_S128x4096_S128x4096_1_0_0_1_n_n.contr.Idx) : (dot_S128x128_S128x4096_S128x4096_1_0_0_1_n_n.lhsIdx i q 0).val = (i 0).val := by
  unfold DotDims.lhsIdx
  rw [dif_neg (show ¬(0 : Fin S128x128.rank) ∈ dot_S128x128_S128x4096_S128x4096_1_0_0_1_n_n.lhsBatch by decide),
    dif_pos (show (0 : Fin S128x128.rank) ∈ dot_S128x128_S128x4096_S128x4096_1_0_0_1_n_n.lhsNonContracting by decide)]
  rfl
theorem second_rhs_col (i : S128x4096.Idx) (q : dot_S128x128_S128x4096_S128x4096_1_0_0_1_n_n.contr.Idx) : (dot_S128x128_S128x4096_S128x4096_1_0_0_1_n_n.rhsIdx i q 1).val = (i 1).val := by
  unfold DotDims.rhsIdx
  rw [dif_neg (show ¬(1 : Fin S128x4096.rank) ∈ dot_S128x128_S128x4096_S128x4096_1_0_0_1_n_n.rhsBatch by decide),
    dif_pos (show (1 : Fin S128x4096.rank) ∈ dot_S128x128_S128x4096_S128x4096_1_0_0_1_n_n.rhsNonContracting by decide)]
  rfl

/-- A pattern block times a first-layer weight block, at `(p, k)`: the sum over the 4096 model coordinates. -/
def blockProj (x : FVec Ideal S128x4096 .f32) (w : FVec Ideal S4096x128 .f32) (p k : Fin 128) : EReal :=
  ∑ d : Fin 4096, x (ix2 p d) * w (ix2 d k)

theorem first_layer_at (x : FVec Ideal S128x4096 .f32) (w : FVec Ideal S4096x128 .f32) (p k : Fin 128) :
    matmul (F := Ideal) dot_S128x4096_S4096x128_S128x128_1_0_0_1_n_n (some .fp32) x w (constant S128x128 .f32 0x00000000#32) (ix2 p k)
      = blockProj x w p k := by
  unfold blockProj
  simp only [matmul]
  rw [Ideal.matmul_constant_zero_apply, ← Equiv.sum_comp (contrEquiv1 dot_S128x4096_S4096x128_S128x128_1_0_0_1_n_n 4096 rfl rfl).symm]
  refine Finset.sum_congr rfl fun d _ => ?_
  have hd := contrEquiv1_symm_val dot_S128x4096_S4096x128_S128x128_1_0_0_1_n_n 4096 rfl rfl d
  have el : dot_S128x4096_S4096x128_S128x128_1_0_0_1_n_n.lhsIdx (ix2 p k) ((contrEquiv1 dot_S128x4096_S4096x128_S128x128_1_0_0_1_n_n 4096 rfl rfl).symm d) = ix2 p d :=
    funext fun a => Fin.ext (by
      match a with
      | ⟨0, _⟩ => exact first_lhs_row _ _
      | ⟨1, _⟩ => exact (dot_S128x4096_S4096x128_S128x128_1_0_0_1_n_n.lhsIdx_val_of_single rfl _ _).trans hd)
  have er : dot_S128x4096_S4096x128_S128x128_1_0_0_1_n_n.rhsIdx (ix2 p k) ((contrEquiv1 dot_S128x4096_S4096x128_S128x128_1_0_0_1_n_n 4096 rfl rfl).symm d) = ix2 d k :=
    funext fun a => Fin.ext (by
      match a with
      | ⟨0, _⟩ => exact (dot_S128x4096_S4096x128_S128x128_1_0_0_1_n_n.rhsIdx_val_of_single rfl _ _).trans hd
      | ⟨1, _⟩ => exact first_rhs_col _ _)
  rw [el, er]

/-- A hidden block times the second-layer weight block, at `(p, q)`: the sum over the block's 128 hidden units. -/
theorem second_layer_at (h : FVec Ideal S128x128 .bf16) (w : FVec Ideal S128x4096 .bf16) (p : Fin 128) (q : Fin 4096) :
    matmul (F := Ideal) dot_S128x128_S128x4096_S128x4096_1_0_0_1_n_n none h w (constant S128x4096 .f32 0x00000000#32) (ix2 p q)
      = ∑ k : Fin 128, h (ix2 p k) * w (ix2 k q) := by
  simp only [matmul]
  rw [Ideal.matmul_constant_zero_apply, ← Equiv.sum_comp (contrEquiv1 dot_S128x128_S128x4096_S128x4096_1_0_0_1_n_n 128 rfl rfl).symm]
  refine Finset.sum_congr rfl fun k _ => ?_
  have hk := contrEquiv1_symm_val dot_S128x128_S128x4096_S128x4096_1_0_0_1_n_n 128 rfl rfl k
  have el : dot_S128x128_S128x4096_S128x4096_1_0_0_1_n_n.lhsIdx (ix2 p q) ((contrEquiv1 dot_S128x128_S128x4096_S128x4096_1_0_0_1_n_n 128 rfl rfl).symm k) = ix2 p k :=
    funext fun a => Fin.ext (by
      match a with
      | ⟨0, _⟩ => exact second_lhs_row _ _
      | ⟨1, _⟩ => exact (dot_S128x128_S128x4096_S128x4096_1_0_0_1_n_n.lhsIdx_val_of_single rfl _ _).trans hk)
  have er : dot_S128x128_S128x4096_S128x4096_1_0_0_1_n_n.rhsIdx (ix2 p q) ((contrEquiv1 dot_S128x128_S128x4096_S128x4096_1_0_0_1_n_n 128 rfl rfl).symm k) = ix2 k q :=
    funext fun a => Fin.ext (by
      match a with
      | ⟨0, _⟩ => exact (dot_S128x128_S128x4096_S128x4096_1_0_0_1_n_n.rhsIdx_val_of_single rfl _ _).trans hk
      | ⟨1, _⟩ => exact second_rhs_col _ _)
  rw [el, er]

/-! ## The hidden block at an entry -/

/-- The hidden activation the body forms at `(p, k)` of its block, from the block products and stored states there. -/
def hiddenBlock (x0 x1 : Vec Ideal S128x4096 .f32) (x2 x3 x4 x5 : Vec Ideal S128x128 .f32)
    (x6 x7 x8 : Vec Ideal S4096x128 .f32) (p k : Fin 128) : EReal :=
  hiddenLit (blockProj x0 x7 p k) (x4 (ix2 p k)) (blockProj x0 x6 p k) (x2 (ix2 p k))
    (blockProj x1 x8 p k) (x5 (ix2 p k)) (blockProj x1 x6 p k) (x3 (ix2 p k))

/-- THE STEP: what the body leaves at `(p, q)` of the output block is what the block held there plus the hidden block's
    row `p` against column `q` of the second-layer weight block. -/
theorem step_at (x0 x1 : Vec Ideal S128x4096 .f32) (x2 x3 x4 x5 : Vec Ideal S128x128 .f32)
    (x6 x7 x8 : Vec Ideal S4096x128 .f32) (x9 : Vec Ideal S128x4096 .bf16) (acc : Vec Ideal S128x4096 .f32)
    (p : Fin 128) (q : Fin 4096) :
    k0_pay1 (k0_pay4 x1 x8 x5)
        (k0_pay7 (k0_pay5 x0 x6) x2 (k0_pay6 x0 x6 x2) (Scalar.ofBits .f32 0x3DCCCCCD#32))
        (k0_pay8 x1 x6 x3) (k0_pay9 (k0_pay3 x0 x7 x4))
        (k0_pay10 (k0_pay5 x0 x6) x2 (k0_pay6 x0 x6 x2) (Scalar.ofBits .f32 0x3DCCCCCD#32)) acc x9 (ix2 p q)
      = acc (ix2 p q) + ∑ k : Fin 128, hiddenBlock x0 x1 x2 x3 x4 x5 x6 x7 x8 p k * x9 (ix2 k q) := by
  unfold k0_pay1
  simp only [shapeCast_self]
  refine congrArg (acc (ix2 p q) + ·) ?_
  refine (second_layer_at _ _ p q).trans (Finset.sum_congr rfl fun k _ => ?_)
  refine congrArg (· * x9 (ix2 k q)) ?_
  show hiddenLit
      (matmul dot_S128x4096_S4096x128_S128x128_1_0_0_1_n_n (some .fp32) x0 x7 (constant S128x128 .f32 0x00000000#32) (ix2 p k)) (x4 (ix2 p k))
      (matmul dot_S128x4096_S4096x128_S128x128_1_0_0_1_n_n (some .fp32) x0 x6 (constant S128x128 .f32 0x00000000#32) (ix2 p k)) (x2 (ix2 p k))
      (matmul dot_S128x4096_S4096x128_S128x128_1_0_0_1_n_n (some .fp32) x1 x8 (constant S128x128 .f32 0x00000000#32) (ix2 p k)) (x5 (ix2 p k))
      (matmul dot_S128x4096_S4096x128_S128x128_1_0_0_1_n_n (some .fp32) x1 x6 (constant S128x128 .f32 0x00000000#32) (ix2 p k)) (x3 (ix2 p k))
    = _
  unfold hiddenBlock
  rw [first_layer_at, first_layer_at, first_layer_at, first_layer_at]

/-- THE RESET: the zero block the first point of a row block stores before its step. -/
theorem zero_block_at (y : S128x4096.Idx) : k0_pay2 (F := Ideal) y = 0 := by
  show Ideal.ofBits .f32 0x00000000#32 = 0
  exact Ideal.ofBits_zero_f32

end Cert.KernelIdeal.PointBody

end
-- ==== Proof.FoldValue.lean ====
/-
  The kernel's result array is the specified function of its arguments.

  For each block of 128 rows the grid visits the 128 hidden blocks one after the other; the first visit stores a zero
  block and adds its contribution, every later visit adds its contribution to what the block holds, and the last
  visit's block is written to rows `128·r … 128·r + 127` of the result. So the result at `(b, d)` is zero plus the
  sum, over the 128 visits `s`, of the visit's contribution at the entry `(b % 128, d)` of the block; the contribution
  of visit `s` is the sum over the 128 hidden units `k` of the visit's hidden block of the hidden activation at
  `(b, 128·s + k)` times `w2 (128·s + k, d)`. Summing 128 blocks of 128 consecutive terms is summing all 16384 terms.
-/
import proofs.«134992_j90314572300882_2_alg».proof.Proof.Gen.KernelIdeal.Value
import proofs.«134992_j90314572300882_2_alg».proof.Proof.BlockReads
import proofs.«134992_j90314572300882_2_alg».proof.Proof.PointBody
import proofs.«134992_j90314572300882_2_alg».proof.Proof.SpikeSpec

noncomputable section

namespace Cert.KernelIdeal.FoldValue

open Cert.KernelIdeal Cert.KernelIdeal.Gen Cert.KernelIdeal.Value Cert.KernelIdeal.BlockReads Cert.KernelIdeal.PointBody
open Idealize.ShloMosaic Idealize.ShloMosaic.TcCoe Idealize.SL.Sem Idealize.ShloMosaic.ValueIdx Cert.SpikeGate
open scoped BigOperators

variable (m : (ℓ : Loc nD τ sig) → Buf (Elt Ideal) ℓ)

/-- The ten argument arrays as the program is launched with them. -/
def args (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9)⟩

/-- One term of the result's sum: the hidden activation at `(b, f)` times `w2 (f, d)`, by natural-number coordinates
    (zero for coordinates outside the arrays, which are never used). -/
def term (A : Args) (b f d : ℕ) : EReal :=
  if h : b < 2048 ∧ f < 16384 ∧ d < 4096 then hiddenAt A ⟨b, h.1⟩ ⟨f, h.2.1⟩ * A.w2 (ix2 ⟨f, h.2.1⟩ ⟨d, h.2.2⟩) else 0

/-- What grid point `n` adds at entry `y` of its output block. -/
def addend (c : Dev nD) (n : ℕ) (y : S128x4096.Idx) : EReal :=
  ∑ k : Fin 128, term (args m c) (128 * (n / 128) + (y 0).val) (128 * (n % 128) + k.val) (y 1).val

/-! ## A grid point's blocks as pieces of the arrays -/

/-- A block product is the corresponding first-layer projection, given where the two blocks sit. -/
theorem proj_at (t : Fin cfg0.N) (X : FVec Ideal S2048x4096 .f32) (W : FVec Ideal S4096x16384 .f32)
    (x : FVec Ideal S128x4096 .f32) (w : FVec Ideal S4096x128 .f32)
    (hx : ∀ (y : S128x4096.Idx) (i : S2048x4096.Idx),
      (i 0).val = 128 * (t.val / 128) + (y 0).val → (i 1).val = (y 1).val → x y = X i)
    (hw : ∀ (y : S4096x128.Idx) (i : S4096x16384.Idx),
      (i 0).val = (y 0).val → (i 1).val = 128 * (t.val % 128) + (y 1).val → w y = W i)
    (p k : Fin 128) (b : Fin 2048) (f : Fin 16384)
    (hb : b.val = 128 * (t.val / 128) + p.val) (hf : f.val = 128 * (t.val % 128) + k.val) :
    blockProj x w p k = proj X W b f := by
  unfold blockProj proj
  exact Finset.sum_congr rfl fun d _ => by rw [hx (ix2 p d) (ix2 b d) hb rfl, hw (ix2 d k) (ix2 d f) rfl hf]

/-- The hidden block of point `t` at `(p, k)` is the hidden activation at row `128·(t/128) + p`, unit `128·(t%128) + k`. -/
theorem hidden_at (c : Dev nD) (t : Fin cfg0.N) (p k : Fin 128) (b : Fin 2048) (f : Fin 16384)
    (hb : b.val = 128 * (t.val / 128) + p.val) (hf : f.val = 128 * (t.val % 128) + k.val) :
    hiddenBlock (iblk m c 0 t) (iblk m c 1 t) (iblk m c 2 t) (iblk m c 3 t) (iblk m c 4 t) (iblk m c 5 t)
        (iblk m c 6 t) (iblk m c 7 t) (iblk m c 8 t) p k
      = hiddenAt (args m c) b f := by
  have e1 := proj_at t (args m c).sem (args m c).wsr (iblk m c 0 t) (iblk m c 7 t) (sem_at m c t) (wsr_at m c t) p k b f hb hf
  have e2 := proj_at t (args m c).sem (args m c).w1 (iblk m c 0 t) (iblk m c 6 t) (sem_at m c t) (w1_at m c t) p k b f hb hf
  have e3 := proj_at t (args m c).phon (args m c).wpr (iblk m c 1 t) (iblk m c 8 t) (phon_at m c t) (wpr_at m c t) p k b f hb hf
  have e4 := proj_at t (args m c).phon (args m c).w1 (iblk m c 1 t) (iblk m c 6 t) (phon_at m c t) (w1_at m c t) p k b f hb hf
  have e5 : iblk m c 4 t (ix2 p k) = (args m c).psr (ix2 b f) := psr_at m c t (ix2 p k) (ix2 b f) hb hf
  have e6 : iblk m c 2 t (ix2 p k) = (args m c).psa (ix2 b f) := psa_at m c t (ix2 p k) (ix2 b f) hb hf
  have e7 : iblk m c 5 t (ix2 p k) = (args m c).ppr (ix2 b f) := ppr_at m c t (ix2 p k) (ix2 b f) hb hf
  have e8 : iblk m c 3 t (ix2 p k) = (args m c).ppa (ix2 b f) := ppa_at m c t (ix2 p k) (ix2 b f) hb hf
  unfold hiddenBlock hiddenAt
  rw [hiddenLit_eq, e1, e2, e3, e4, e5, e6, e7, e8]

/-! ## One grid point -/

/-- A later visit adds the point's contribution to what the block holds. -/
theorem step_eq (c : Dev nD) (n : ℕ) (h : n < cfg0.N) (acc : Vec Ideal S128x4096 .f32) (y : S128x4096.Idx) :
    step10 m c n h acc y = acc y + addend m c n y := by
  obtain ⟨p, q, rfl⟩ : ∃ (p : Fin 128) (q : Fin 4096), y = ix2 p q := ⟨y 0, y 1, eq_ix2 y⟩
  have hN : n < 2048 := lt_of_lt_of_eq h (show cfg0.N = 2048 from N_0)
  refine (step_at (iblk m c 0 ⟨n, h⟩) (iblk m c 1 ⟨n, h⟩) (iblk m c 2 ⟨n, h⟩) (iblk m c 3 ⟨n, h⟩) (iblk m c 4 ⟨n, h⟩)
    (iblk m c 5 ⟨n, h⟩) (iblk m c 6 ⟨n, h⟩) (iblk m c 7 ⟨n, h⟩) (iblk m c 8 ⟨n, h⟩) (iblk m c 9 ⟨n, h⟩) acc p q).trans ?_
  refine congrArg (acc (ix2 p q) + ·) (Finset.sum_congr rfl fun k _ => ?_)
  have hb : 128 * (n / 128) + p.val < 2048 := by have := p.isLt; omega
  have hf : 128 * (n % 128) + k.val < 16384 := by have := k.isLt; omega
  show _ = term (args m c) (128 * (n / 128) + p.val) (128 * (n % 128) + k.val) q.val
  unfold term
  rw [dif_pos ⟨hb, hf, q.isLt⟩,
    hidden_at m c ⟨n, h⟩ p k ⟨128 * (n / 128) + p.val, hb⟩ ⟨128 * (n % 128) + k.val, hf⟩ rfl rfl,
    w2_at m c ⟨n, h⟩ (ix2 k q) (ix2 ⟨128 * (n % 128) + k.val, hf⟩ ⟨q.val, q.isLt⟩) rfl rfl]
  rfl

/-- The first visit stores zeros and then does the same. -/
theorem reset_eq (c : Dev nD) (n : ℕ) (h : n < cfg0.N) (y : S128x4096.Idx) :
    reset10 m c n h y = (fun _ => (0 : EReal)) y + addend m c n y := by
  show step10 m c n h (k0_pay2 (F := Ideal)) y = _
  rw [step_eq, zero_block_at]

/-! ## The whole array -/

theorem final_eq_out (c : Dev nD) : G10 m c = out (args m c) := by
  funext i
  have hi0 : (i 0).val < 2048 := (i 0).isLt
  have hi1 : (i 1).val < 4096 := (i 1).isLt
  have hN : cfg0.N = 2048 := N_0
  have hrun : run10Of i = (i 0).val / 128 := by
    show 1 * ((i 0).val / 128 - 0) + 1 * ((i 1).val / 4096 - 0) = _
    omega
  have hbound : 128 * run10Of i + 127 < cfg0.N := by rw [hrun, hN]; omega
  unfold G10
  rw [dif_pos hbound,
    Pipeline.accAt_add_apply (reset10 m c) (step10 m c) (fun _ => (0 : EReal)) (addend m c) (128 * run10Of i) 127
      (fun h y => reset_eq m c _ h y) (fun n h acc y _ _ => step_eq m c n h acc y) 127 le_rfl hbound (loc10Of i)]
  show (0 : EReal) + ∑ s ∈ Finset.range (127 + 1), addend m c (128 * run10Of i + s) (loc10Of i) = out (args m c) i
  rw [zero_add]
  have hout : out (args m c) i = ∑ f : Fin 16384, term (args m c) (i 0).val f.val (i 1).val :=
    Finset.sum_congr rfl fun f _ => by unfold term; rw [dif_pos ⟨hi0, f.isLt, hi1⟩]; rfl
  rw [hout]
  refine Eq.trans ?_ (sum_blocks fun n => term (args m c) (i 0).val n (i 1).val).symm
  refine Finset.sum_congr rfl fun s hs => ?_
  have hs' : s < 128 := Finset.mem_range.mp hs
  unfold addend
  refine Finset.sum_congr rfl fun k _ => ?_
  have l0 : (loc10Of i 0).val = (i 0).val % 128 := rfl
  have l1 : (loc10Of i 1).val = (i 1).val % 4096 := rfl
  have e1 : 128 * ((128 * ((i 0).val / 128) + s) / 128) + (i 0).val % 128 = (i 0).val := by omega
  have e2 : 128 * ((128 * ((i 0).val / 128) + s) % 128) + k.val = 128 * s + k.val := by omega
  have e3 : (i 1).val % 4096 = (i 1).val := by omega
  rw [l0, l1, hrun, e1, e2, e3]

end Cert.KernelIdeal.FoldValue

end
-- ==== Proof.lean ====
/-
  The kernel and its reference compute one function on the extended reals.

  Both take two patterns, four stored states and four weights, form four first-layer projections, mix each with a
  stored state (the larger plus a tenth of the other), take the ternary sign of the two hidden mixes, gate each sign by
  whether the matching receptance mix is above zero, add the two gated signs and multiply the sum by the second-layer
  weight. They differ only in how three things are written: minus one (a literal, or the negation of one), the negated
  sign (`0 - s`, or `-s`), and the last sum over the 16384 hidden units (128 blocks of 128 added one after the other
  onto zero through a narrowed copy of the weight, or one sum). Each pair is equal at every extended real, so the
  inputs' finiteness is never used.

  `SpikeSpec` states the function and these equalities with no program in sight; `RefValue` reads the reference's run
  as that function; `BlockReads` places each grid point's input blocks in the arrays, `PointBody` reads what one grid
  point adds to its output block, and `FoldValue` sums the 128 visits of a row block into the function. Here the two
  runs are set side by side on memories that agree on the arguments.
-/
import proofs.«134992_j90314572300882_2_alg».proof.Defs
import proofs.«134992_j90314572300882_2_alg».proof.Proof.Gen.Kernel.Frame
import proofs.«134992_j90314572300882_2_alg».proof.Proof.Gen.KernelIdeal.Value
import proofs.«134992_j90314572300882_2_alg».proof.Proof.Gen.Pre_finite_inputs
import proofs.«134992_j90314572300882_2_alg».proof.Proof.Gen.ReferenceIdeal.Run
import proofs.«134992_j90314572300882_2_alg».proof.Proof.Gen.ReferenceIdeal.Read
import proofs.«134992_j90314572300882_2_alg».proof.Proof.RefValue
import proofs.«134992_j90314572300882_2_alg».proof.Proof.FoldValue
import Idealize.ShloMosaic.Adequacy
import Idealize.ShloMosaic.Init

noncomputable section

namespace Cert.Proof

open Idealize.ShloMosaic Idealize.SL.Sem

/-- The idealized kernel runs and leaves its arguments as they were: its value run, with the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, with the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the ten arguments both programs end with the specified function of those arguments in
    their result array. -/
theorem algebraic_KernelIdeal_ReferenceIdeal : algebraic_KernelIdeal_ReferenceIdeal := by
  intro m ρ m' ρ' _ hagree
  refine ⟨fun c => Cert.KernelIdeal.Value.G10 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v59 m' c = Cert.KernelIdeal.Value.G10 m c
  obtain ⟨h0, h1, h2, h3, h4, h5, h6, h7, h8, h9⟩ := hagree c
  rw [Cert.ReferenceIdeal.Read.val_main_v59_eq, Cert.ReferenceIdeal.RefValue.stage_eq_out,
    Cert.KernelIdeal.FoldValue.final_eq_out, h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
